-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S8x512x512 : Shape := ⟨3, ![8, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S16x8x512x512 .f32) (main_arg1 : FVec F S8x512x512 .f32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  main_v8
-- ==== Kernel.lean ====
abbrev S16x8x512x512 : Shape := ⟨4, ![16, 8, 512, 512]⟩
abbrev S8x512x512 : Shape := ⟨3, ![8, 512, 512]⟩
abbrev S8x128 : Shape := ⟨2, ![8, 128]⟩
abbrev S16x1x128x512 : Shape := ⟨4, ![16, 1, 128, 512]⟩
abbrev S1x128x512 : Shape := ⟨3, ![1, 128, 512]⟩
abbrev S16x128x512 : Shape := ⟨3, ![16, 128, 512]⟩
abbrev S128x512 : Shape := ⟨2, ![128, 512]⟩
abbrev S16x128 : Shape := ⟨2, ![16, 128]⟩
abbrev S16 : Shape := ⟨1, ![16]⟩
abbrev S16x1 : Shape := ⟨2, ![16, 1]⟩
abbrev S1 : Shape := ⟨1, ![1]⟩
abbrev S1x1 : Shape := ⟨2, ![1, 1]⟩
abbrev S128 : Shape := ⟨1, ![128]⟩
abbrev S128x1 : Shape := ⟨2, ![128, 1]⟩
abbrev S_ : Shape := ⟨0, ![]⟩

abbrev nBuf : Space → Nat
  | .hbm => 15
  | .vmem => 6
  | .smem => 0
  | _ => 0

abbrev bufTy : (tb : Table) → Fin (tcTables nBuf tb) → BufTy
  | .hbm, ⟨0, _⟩ => ⟨S16x8x512x512, .f32⟩
  | .hbm, ⟨1, _⟩ => ⟨S8x512x512, .f32⟩
  | .hbm, ⟨2, _⟩ => ⟨S8x128, .f32⟩
  | .hbm, ⟨3, _⟩ => ⟨S8x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S16x1x128x512, .f32⟩
  | .local _ .vmem, ⟨1, _⟩ => ⟨S16x1x128x512, .f32⟩
  | .local _ .vmem, ⟨2, _⟩ => ⟨S1x128x512, .f32⟩
  | .local _ .vmem, ⟨3, _⟩ => ⟨S1x128x512, .f32⟩
  | .local _ .vmem, ⟨4, _⟩ => ⟨S8x128, .f32⟩
  | .local _ .vmem, ⟨5, _⟩ => ⟨S8x128, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S8x128_S8x128_0_0 : ∀ a, (![0, 0] : Fin 2 → Nat) a + S8x128.size a ≤ S8x128.size a
  h_S8x128 : 0 < S8x128.numel
  inb_S16x1x128x512_S16x1x128x512_0_0_0_0 : ∀ a, (![0, 0, 0, 0] : Fin 4 → Nat) a + S16x1x128x512.size a ≤ S16x1x128x512.size a
  h_S16x1x128x512 : 0 < S16x1x128x512.numel
  shapeCasts_S16x1x128x512_S16x128x512 : S16x1x128x512.ShapeCasts S16x128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  broadcasts_S1x128x512_S16x128x512 : S1x128x512.Broadcasts S16x128x512
  reduces_S16x128x512_S16x128 : S16x128x512.Reduces [2] S16x128
  reduces_S16x128_S16 : S16x128.Reduces [1] S16
  shapeCasts_S16_S16x1 : S16.ShapeCasts S16x1
  reduces_S16x1_S1 : S16x1.Reduces [0] S1
  shapeCasts_S1_S1x1 : S1.ShapeCasts S1x1
  reduces_S16x128x512_S128x512 : S16x128x512.Reduces [0] S128x512
  reduces_S128x512_S128 : S128x512.Reduces [1] S128
  shapeCasts_S128_S128x1 : S128.ShapeCasts S128x1
  reduces_S128x1_S1 : S128x1.Reduces [0] S1
  shapeCasts_S8x128_S8x128 : S8x128.ShapeCasts S8x128
  shapeCasts_S1x1_S1x1 : S1x1.ShapeCasts S1x1
  broadcasts_S1x1_S8x128 : S1x1.Broadcasts S8x128
  slices_S8x128_S1x1_0_0 : S8x128.Slices ![0, 0] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1x128x512.size a ≤ S16x8x512x512.size a
  hwx0_0 : ∀ i : grid0.Coords, EltTy.bits .f32 = 32 ∨ (Rect.block (s := S16x8x512x512) S16x1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .f32 = 32 ∨ (Rect.block (s := S8x512x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)

variable [Facts₀]

abbrev win0_0 : Pipeline.Window sig grid0 :=
  Pipeline.Window.ofSpec (Memref.whole main_arg0) S16x1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8x512x512 : Shape := ⟨4, ![16, 8, 512, 512]⟩
abbrev S8x512x512 : Shape := ⟨3, ![8, 512, 512]⟩
abbrev S1x8x512x512 : Shape := ⟨4, ![1, 8, 512, 512]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16x8x512x512, .f32⟩
  | .hbm, ⟨1, _⟩ => ⟨S8x512x512, .f32⟩
  | .hbm, ⟨2, _⟩ => ⟨S1x8x512x512, .f32⟩
  | .hbm, ⟨3, _⟩ => ⟨S16x8x512x512, .f32⟩
  | .hbm, ⟨4, _⟩ => ⟨S16x8x512x512, .f32⟩
  | .hbm, ⟨5, _⟩ => ⟨S16x8x512x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x8x512x512, .f32⟩
  | .hbm, ⟨11, _⟩ => ⟨S_, .f32⟩
  | .hbm, ⟨12, _⟩ => ⟨S8x512x512, .f32⟩
  | .hbm, ⟨13, _⟩ => ⟨S_, .f32⟩
  | .hbm, ⟨14, _⟩ => ⟨S8x512x512, .f32⟩
  | .hbm, ⟨15, _⟩ => ⟨S8x512x512, .f32⟩
  | .hbm, ⟨16, _⟩ => ⟨S8x512x512, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8x512x512_S1x8x512x512_1_2_3 : S8x512x512.BroadcastsInDim S1x8x512x512 (![1, 2, 3] : Fin 3 → Fin S1x8x512x512.rank)
  bcast_S1x8x512x512_S16x8x512x512_0_1_2_3 : S1x8x512x512.BroadcastsInDim S16x8x512x512 (![0, 1, 2, 3] : Fin 4 → Fin S16x8x512x512.rank)
  reducesTo_S16x8x512x512_S_d0_1_2_3 : S16x8x512x512.ReducesTo [0, 1, 2, 3] S_
  h_S_ : 0 < S_.numel
  reducesTo_S16x8x512x512_S8x512x512_d0 : S16x8x512x512.ReducesTo [0] S8x512x512
  bcast_S_S8x512x512 : S_.BroadcastsInDim S8x512x512 (![] : Fin 0 → Fin S8x512x512.rank)
  reducesTo_S8x512x512_S_d0_1_2 : S8x512x512.ReducesTo [0, 1, 2] S_

variable [Facts₀]

class Facts : Prop extends Facts₀ where

variable [Facts]
-- ==== Proof.Spec.lean ====
/-
  The quantity both programs compute, written once over the extended reals.

  For predictions P[m, b, h, w] (16 members, 8 images of 512 x 512) and targets Y[b, h, w]:
    first  = ( sum over m, b, h, w of |P - Y| ) / 2^25
    second = ( sum over b, h, w of s^2 ) / 2^21 / 512,   s = (sum over m of |P|) scaled to a mean,
    result = first - second.
  The kernel walks the 8 x 4 tiles (image b, band of 128 rows hb) in row-major order and adds each tile's two
  partial sums to two running totals; the reference sums over the whole arrays at once.  This module names the
  tile sums, the running totals (as a sum over the 32 grid points in order) and the final combination.
-/
import Idealize.ShloMosaic.PureOps.Ideal
import Idealize.ShloMosaic.Lib.ValueIdx

noncomputable section

namespace Cert.Crps

open Idealize.ShloMosaic Idealize.ShloMosaic.ValueIdx

/-- The predictions' shape [16, 8, 512, 512] and the targets' shape [8, 512, 512]. -/
abbrev SP : Shape := ⟨4, ![16, 8, 512, 512]⟩
abbrev SY : Shape := ⟨3, ![8, 512, 512]⟩

/-- The absolute value on the extended reals: the larger of x and -x. -/
def eabs (x : EReal) : EReal := max x (-x)

/-- |P - Y| at member m, image b, row h, column w. -/
def dev (P : SP.Idx → EReal) (Y : SY.Idx → EReal) (m : Fin 16) (b : Fin 8) (h : Fin 512) (w : Fin 512) : EReal :=
  eabs (P (ix4 m b h w) - Y (ix3 b h w))

/-- The sum over the 16 members of |P| at image b, row h, column w. -/
def colAbs (P : SP.Idx → EReal) (b : Fin 8) (h : Fin 512) (w : Fin 512) : EReal :=
  ∑ m : Fin 16, eabs (P (ix4 m b h w))

/-- Row r of the band hb of 128 rows is row 128 * hb + r of the image. -/
def row (hb : Fin 4) (r : Fin 128) : Fin 512 := ⟨128 * hb.val + r.val, by have := hb.isLt; have := r.isLt; omega⟩

/-- A tile's first partial sum: |P - Y| summed over the members, then the band's rows, then the columns
    (the order in which the kernel reduces). -/
def tileDev (P : SP.Idx → EReal) (Y : SY.Idx → EReal) (b : Fin 8) (hb : Fin 4) : EReal :=
  ∑ m : Fin 16, ∑ r : Fin 128, ∑ w : Fin 512, dev P Y m b (row hb r) w

/-- A tile's second partial sum: the square of the members' sum of |P| scaled by c, summed over the band's rows
    and the columns. -/
def tileSq (c : EReal) (P : SP.Idx → EReal) (b : Fin 8) (hb : Fin 4) : EReal :=
  ∑ r : Fin 128, ∑ w : Fin 512, (colAbs P b (row hb r) w * c) * (colAbs P b (row hb r) w * c)

/-- Grid point n (row-major over 8 images by 4 bands) is image n / 4, band n % 4. Total on the naturals; only
    n < 32 is ever used. -/
def tileB (n : ℕ) : Fin 8 := ⟨(n / 4) % 8, Nat.mod_lt _ (by decide)⟩
def tileH (n : ℕ) : Fin 4 := ⟨n % 4, Nat.mod_lt _ (by decide)⟩

/-- The kernel's two totals: the tile sums added over the 32 grid points. -/
def kerDev (P : SP.Idx → EReal) (Y : SY.Idx → EReal) : EReal :=
  ∑ n ∈ Finset.range 32, tileDev P Y (tileB n) (tileH n)
def kerSq (c : EReal) (P : SP.Idx → EReal) : EReal :=
  ∑ n ∈ Finset.range 32, tileSq c P (tileB n) (tileH n)

/-- The reference's two totals: sums over the whole arrays, the member mean taken by dividing by d. -/
def refDev (P : SP.Idx → EReal) (Y : SY.Idx → EReal) : EReal :=
  ∑ j : SP.Idx, eabs (P j - Y (ix3 (j 1) (j 2) (j 3)))
def refSq (d : EReal) (P : SP.Idx → EReal) : EReal :=
  ∑ j : SY.Idx, Ideal.div (colAbs P (j 0) (j 1) (j 2)) d * Ideal.div (colAbs P (j 0) (j 1) (j 2)) d

/-- The closing arithmetic both programs share: a / 2^25 - (b / 2^21) / 512, the three divisors as their f32 words. -/
def combine (a b : EReal) : EReal :=
  Ideal.div a (Ideal.ofBits .f32 0x4C000000#32)
    - Ideal.div (Ideal.div b (Ideal.ofBits .f32 0x4A000000#32)) (Ideal.ofBits .f32 0x44000000#32)

/-- The result as one function of the two arrays, in the kernel's arrangement: each total starts from the zero word.
    The kernel scales the members' sum by the word of 1/16. -/
def result (P : SP.Idx → EReal) (Y : SY.Idx → EReal) : EReal :=
  combine (Ideal.ofBits .f32 0x00000000#32 + kerDev P Y)
    (Ideal.ofBits .f32 0x00000000#32 + kerSq (Ideal.ofBits .f32 0x3D800000#32) P)

end Cert.Crps

end
-- ==== Proof.LibIndexSums.lean ====
/-
  Finite sums over an array's index set, re-bracketed: general lemmas over any commutative additive monoid.

  * A sum over the index set of a rank-3 or rank-4 shape is the nested sum over its coordinates (the rank-2 case is
    the library's own).
  * A sum over Fin (m * n) is the sum over the quotient a : Fin m and the remainder b : Fin n of the value at
    b + n * a — the step that turns a sum over a long axis into a sum over blocks and positions inside a block, or a
    sum over a row-major grid of points into a sum over the grid's two coordinates.
-/
import Idealize.ShloMosaic.Lib.ValueIdx

open scoped BigOperators

namespace Cert.IndexSums

open Idealize.ShloMosaic Idealize.ShloMosaic.ValueIdx

variable {M : Type*} [AddCommMonoid M]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the quotient `a : Fin m` and the remainder `b : Fin n` of the value at
    `b + n * a`. -/
theorem sum_fin_mul {m n : Nat} (f : Fin (m * n) → M) :
    ∑ k, f k = ∑ a : Fin m, ∑ b : Fin n, f (finProdFinEquiv (a, b)) := by
  rw [← Equiv.sum_comp finProdFinEquiv f, Fintype.sum_prod_type]

end Cert.IndexSums
-- ==== Proof.Law.lean ====
/-
  The reference's two totals equal the kernel's two totals: pure algebra over the extended reals.

  The reference adds |P - Y| over the whole index set of P and the scaled square over the whole index set of Y; the
  kernel adds, over the 32 grid points in row-major order, each tile's partial sum. Both are the same finite sum in a
  commutative monoid, re-bracketed:
    * a sum over an index set of rank 3 or 4 is the nested sum over its coordinates;
    * a sum over the 512 rows is the sum over the 4 bands of the sum over the band's 128 rows (row = 128 * band + r);
    * a sum over the 32 grid points n is the sum over the 8 images b and the 4 bands hb (n = 4 * b + hb);
    * nested finite sums may be exchanged.
  No finiteness assumption is needed: addition on the extended reals is commutative and associative everywhere.
  For the second total the reference divides the members' sum by the word of 16 and the kernel multiplies it by the
  word of 1/16; dividing an extended real by a nonzero real y is multiplying by the real 1 / y, for every extended real.
-/
import proofs.«149358_j14645838479695_2_alg».proof.Proof.Spec
import proofs.«149358_j14645838479695_2_alg».proof.Proof.LibIndexSums

noncomputable section

open scoped BigOperators

namespace Cert.Crps

open Idealize.ShloMosaic Idealize.ShloMosaic.ValueIdx Cert.IndexSums

/-! ## Sums over index sets as nested coordinate sums -/

section Sums
variable {M : Type*} [AddCommMonoid M]

/-- A sum over the 512 rows is the sum over the 4 bands of the sum over the band's 128 rows. -/
theorem sum_row (f : Fin 512 → M) : ∑ h, f h = ∑ hb : Fin 4, ∑ r : Fin 128, f (row hb r) := by
  have key := sum_fin_mul (M := M) (m := 4) (n := 128) f
  rw [key]
  refine Finset.sum_congr rfl fun hb _ => Finset.sum_congr rfl fun r _ => ?_
  congr 1
  refine Fin.ext ?_
  show r.val + 128 * hb.val = 128 * hb.val + r.val
  omega

/-- Grid point 4 * b + hb is image b … -/
theorem tileB_grid (b : Fin 8) (hb : Fin 4) : tileB (hb.val + 4 * b.val) = b := by
  refine Fin.ext ?_
  show (hb.val + 4 * b.val) / 4 % 8 = b.val
  have := b.isLt; have := hb.isLt
  omega

/-- … band hb. -/
theorem tileH_grid (b : Fin 8) (hb : Fin 4) : tileH (hb.val + 4 * b.val) = hb := by
  refine Fin.ext ?_
  show (hb.val + 4 * b.val) % 4 = hb.val
  have := hb.isLt
  omega

/-- A sum over the 32 grid points in order is the sum over the 8 images and the 4 bands. -/
theorem sum_grid (F : Fin 8 → Fin 4 → M) :
    ∑ n ∈ Finset.range 32, F (tileB n) (tileH n) = ∑ b : Fin 8, ∑ hb : Fin 4, F b hb := by
  rw [Finset.sum_range (fun n => F (tileB n) (tileH n))]
  have key := sum_fin_mul (M := M) (m := 8) (n := 4) (fun k : Fin (8 * 4) => F (tileB k.val) (tileH k.val))
  refine key.trans ?_
  refine Finset.sum_congr rfl fun b _ => Finset.sum_congr rfl fun hb _ => ?_
  show F (tileB (hb.val + 4 * b.val)) (tileH (hb.val + 4 * b.val)) = F b hb
  rw [tileB_grid, tileH_grid]

/-- A sum over members, images, rows and columns, taken tile by tile: images and bands outermost, then the members,
    the band's rows and the columns. -/
theorem sum_tiles4 (D : Fin 16 → Fin 8 → Fin 512 → Fin 512 → M) :
    ∑ m, ∑ b, ∑ h, ∑ w, D m b h w
      = ∑ b : Fin 8, ∑ hb : Fin 4, ∑ m : Fin 16, ∑ r : Fin 128, ∑ w : Fin 512, D m b (row hb r) w := by
  rw [Finset.sum_comm]
  refine Finset.sum_congr rfl fun b _ => ?_
  refine (Finset.sum_congr rfl fun m _ => sum_row (fun h => ∑ w, D m b h w)).trans ?_
  exact Finset.sum_comm

/-- A sum over images, rows and columns, taken tile by tile. -/
theorem sum_tiles3 (G : Fin 8 → Fin 512 → Fin 512 → M) :
    ∑ b, ∑ h, ∑ w, G b h w = ∑ b : Fin 8, ∑ hb : Fin 4, ∑ r : Fin 128, ∑ w : Fin 512, G b (row hb r) w := by
  refine Finset.sum_congr rfl fun b _ => ?_
  exact sum_row (fun h => ∑ w, G b h w)

end Sums

/-! ## The first total -/

/-- The reference's sum of |P - Y| over the whole array is the kernel's sum of the 32 tile sums. -/
theorem refDev_eq_kerDev (P : SP.Idx → EReal) (Y : SY.Idx → EReal) : refDev P Y = kerDev P Y := by
  have h1 : refDev P Y = ∑ m : Fin 16, ∑ b : Fin 8, ∑ h : Fin 512, ∑ w : Fin 512, dev P Y m b h w :=
    sum_idx4 (fun j : SP.Idx => eabs (P j - Y (ix3 (j 1) (j 2) (j 3))))
  have h2 : kerDev P Y = ∑ b : Fin 8, ∑ hb : Fin 4, tileDev P Y b hb :=
    sum_grid (fun b hb => tileDev P Y b hb)
  rw [h1, h2]
  exact sum_tiles4 (fun m b h w => dev P Y m b h w)

/-! ## The second total -/

/-- The word 0x41800000 denotes the real 16. -/
theorem ofBits_sixteen : Ideal.ofBits .f32 0x41800000#32 = ((16 : ℝ) : EReal) := by
  simp [Ideal.ofBits, Ideal.ieee, -EReal.coe_mul]; norm_num

/-- The word 0x3D800000 denotes the real 1/16. -/
theorem ofBits_sixteenth : Ideal.ofBits .f32 0x3D800000#32 = ((1 / 16 : ℝ) : EReal) := by
  simp [Ideal.ofBits, Ideal.ieee, -EReal.coe_mul]; norm_num

/-- Dividing by the word of 16 is multiplying by the word of 1/16, for every extended real. -/
theorem div_sixteen (x : EReal) :
    Ideal.div x (Ideal.ofBits .f32 0x41800000#32) = x * Ideal.ofBits .f32 0x3D800000#32 := by
  rw [ofBits_sixteen, ofBits_sixteenth]
  exact Ideal.div_coe (by norm_num) x

/-- The reference's sum of the squared member mean over the whole array is the kernel's sum of the 32 tile sums. -/
theorem refSq_eq_kerSq (P : SP.Idx → EReal) :
    refSq (Ideal.ofBits .f32 0x41800000#32) P = kerSq (Ideal.ofBits .f32 0x3D800000#32) P := by
  have h1 : refSq (Ideal.ofBits .f32 0x41800000#32) P
      = ∑ b : Fin 8, ∑ h : Fin 512, ∑ w : Fin 512,
          (colAbs P b h w * Ideal.ofBits .f32 0x3D800000#32) * (colAbs P b h w * Ideal.ofBits .f32 0x3D800000#32) := by
    unfold refSq
    simp only [div_sixteen]
    exact sum_idx3 (fun j : SY.Idx =>
      (colAbs P (j 0) (j 1) (j 2) * Ideal.ofBits .f32 0x3D800000#32)
        * (colAbs P (j 0) (j 1) (j 2) * Ideal.ofBits .f32 0x3D800000#32))
  have h2 : kerSq (Ideal.ofBits .f32 0x3D800000#32) P
      = ∑ b : Fin 8, ∑ hb : Fin 4, tileSq (Ideal.ofBits .f32 0x3D800000#32) P b hb :=
    sum_grid (fun b hb => tileSq (Ideal.ofBits .f32 0x3D800000#32) P b hb)
  rw [h1, h2]
  exact sum_tiles3 (fun b h w =>
    (colAbs P b h w * Ideal.ofBits .f32 0x3D800000#32) * (colAbs P b h w * Ideal.ofBits .f32 0x3D800000#32))

end Cert.Crps

end
-- ==== Proof.RefValue.lean ====
/-
  The reference program's result as a function of its two argument arrays.

  The reference subtracts the targets (repeated over the 16 members) from the predictions, takes absolute values and
  sums over the whole array, then divides by 2^25; it sums |P| over the members, divides by 16, squares, sums over the
  whole array and divides by 2^21 and by 512; and it subtracts the second number from the first.  Read one operation at
  a time at an index, that is the specification's combination of the two whole-array sums, each started from the zero
  word.
-/
import proofs.«149358_j14645838479695_2_alg».proof.Proof.Gen.ReferenceIdeal.Read
import proofs.«149358_j14645838479695_2_alg».proof.Proof.Spec

noncomputable section

namespace Cert.ReferenceIdeal.RefValue

open Cert.ReferenceIdeal Cert.ReferenceIdeal.Read Cert.ReferenceIdeal.Gen Idealize.ShloMosaic Idealize.ShloMosaic.ValueIdx

/-- Broadcasting the targets first to one member and then to all sixteen reads, at a predictions' index,
    the target at that index's image, row and column. -/
theorem idx_bcast (j : Cert.Crps.SP.Idx) :
    idx_main_v0 (idx_main_v1 j) = (ix3 (j 1) (j 2) (j 3) : Cert.Crps.SY.Idx) :=
  funext fun a => Fin.ext (by match a with | ⟨0, _⟩ => rfl | ⟨1, _⟩ => rfl | ⟨2, _⟩ => rfl)

/-- The k-th term of the sum over the members at a targets' index is the prediction of member k there. -/
theorem idx_member (j : Cert.Crps.SY.Idx) (k : Fin 16) :
    idx_main_v7 j k = (ix4 k (j 0) (j 1) (j 2) : Cert.Crps.SP.Idx) :=
  funext fun a => Fin.ext (by match a with | ⟨0, _⟩ => rfl | ⟨1, _⟩ => rfl | ⟨2, _⟩ => rfl | ⟨3, _⟩ => rfl)

/-- The absolute deviation |P - Y| at a predictions' index. -/
theorem dev_eq (x0 : Cert.Crps.SP.Idx → EReal) (x1 : Cert.Crps.SY.Idx → EReal) (j : Cert.Crps.SP.Idx) :
    val_main_v3 (F := Ideal) x0 x1 j = Cert.Crps.eabs (x0 j - x1 (ix3 (j 1) (j 2) (j 3))) := by
  rw [val_main_v3_apply, val_main_v2_apply, val_main_v1_apply, val_main_v0_apply, idx_bcast,
    Ideal.hostAbsf_def, Ideal.absf_def, Ideal.subf_def]
  rfl

/-- The sum over the members of |P| at a targets' index: the sum starts from the zero word, which is 0. -/
theorem col_eq (x0 : Cert.Crps.SP.Idx → EReal) (j : Cert.Crps.SY.Idx) :
    val_main_v7 (F := Ideal) x0 j = Cert.Crps.colAbs x0 (j 0) (j 1) (j 2) := by
  rw [val_main_v7_apply, val_main_cst_1_apply, Ideal.ofBits_def, Ideal.ofBits_zero_f32, zero_add]
  unfold Cert.Crps.colAbs
  refine Finset.sum_congr rfl fun k _ => ?_
  rw [val_main_v6_apply, idx_member, Ideal.hostAbsf_def, Ideal.absf_def]
  rfl

/-- The square of the members' mean of |P| at a targets' index. -/
theorem sq_eq (x0 : Cert.Crps.SP.Idx → EReal) (j : Cert.Crps.SY.Idx) :
    val_main_v10 (F := Ideal) x0 j
      = Ideal.div (Cert.Crps.colAbs x0 (j 0) (j 1) (j 2)) (Ideal.ofBits .f32 0x41800000#32)
        * Ideal.div (Cert.Crps.colAbs x0 (j 0) (j 1) (j 2)) (Ideal.ofBits .f32 0x41800000#32) := by
  rw [val_main_v10_apply, val_main_v9_apply, col_eq, val_main_v8_apply, val_main_cst_2_apply,
    Ideal.mulf_def, Ideal.hostDivf_def, Ideal.ofBits_def]

/-- The reference program's result is the specification's combination of the two whole-array sums. -/
theorem val_eq (x0 : Cert.Crps.SP.Idx → EReal) (x1 : Cert.Crps.SY.Idx → EReal) :
    val_main_v14 (F := Ideal) x0 x1
      = fun _ => Cert.Crps.combine (Ideal.ofBits .f32 0x00000000#32 + Cert.Crps.refDev x0 x1)
          (Ideal.ofBits .f32 0x00000000#32 + Cert.Crps.refSq (Ideal.ofBits .f32 0x41800000#32) x0) := by
  funext i
  rw [val_main_v14_apply, val_main_v5_apply, val_main_v13_apply, val_main_v4_apply, val_main_v12_apply,
    val_main_v11_apply, val_main_cst_apply, val_main_cst_0_apply, val_main_cst_3_apply, val_main_cst_4_apply,
    val_main_cst_5_apply]
  simp only [dev_eq, sq_eq, Ideal.subf_def, Ideal.hostDivf_def, Ideal.ofBits_def]
  rfl

end Cert.ReferenceIdeal.RefValue

end
-- ==== Proof.Pieces.lean ====
/-
  What one run of the kernel's body leaves in the two running totals' blocks.

  The body adds to each [8, 128] block a number computed from the tile it is given: into the first block the tile's
  sum of |P - Y|, into the second the tile's sum of squared member means.  At the first grid point it stores a zero
  block first and reads it back; at every later point it reads what the point before left.  Either way each block ends
  at ONE covering store whose value is the block read plus the tile's number: the four lemmas below say so, for any
  float values.
-/
import proofs.«149358_j14645838479695_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The zero block the first grid point stores into each running total. -/
abbrev zeroBlock : FVec F S8x128 .f32 := broadcast S8x128 (Scalar.ofBits .f32 0x00000000#32)

/-- The new first total: the old one plus the tile's sum of absolute deviations, spread over the block. -/
abbrev stepDev (x0 : Vec F S16x1x128x512 .f32) (x1 : Vec F S1x128x512 .f32) (acc : Vec F S8x128 .f32) : FVec F S8x128 .f32 :=
  k0_pay6 x0 x1 acc

/-- The new second total: the old one plus the tile's sum of squared member means, spread over the block. -/
abbrev stepSq (x0 : Vec F S16x1x128x512 .f32) (acc : Vec F S8x128 .f32) : FVec F S8x128 .f32 :=
  k0_pay1 (k0_pay5 x0) acc

/-- At a later grid point the first total's block ends at the old total plus the tile's contribution: the body's one
    covering store, whose loads read the whole staging buffers. -/
theorem out_B_2 (c : Dev nD) (i : grid0.Coords) (a2 : Memref sig .tc .vmem S16x1x128x512 .f32) (h2 : a2.IsWhole)
    (a3 : Memref sig .tc .vmem S1x128x512 .f32) (h3 : a3.IsWhole) (a4 : Memref sig .tc .vmem S8x128 .f32) (h4 : a4.IsWhole)
    (a5 : Memref sig .tc .vmem S8x128 .f32) (h5 : a5.IsWhole) (hc : ¬cond0_0 i)
    (x0 : Vec F S16x1x128x512 .f32) (x1 : Vec F S1x128x512 .f32) (xo2 xo3 : Vec F S8x128 .f32) :
    out0_B_2 c i a2 h2 a3 h3 a4 h4 a5 h5 hc x0 x1 xo2 xo3 = stepDev x0 x1 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz2]
  simp only [View.readAt_eq_ld, h2.read_unread, h3.read_unread, h4.read_unread,
    View.ld_unit_zero (S := S8x128) hz2, View.ld_unit_zero (S := S1x128x512) hz3, View.ld_unit_zero (S := S16x1x128x512) hz4]

/-- Likewise the second total's block at a later grid point. -/
theorem out_B_3 (c : Dev nD) (i : grid0.Coords) (a2 : Memref sig .tc .vmem S16x1x128x512 .f32) (h2 : a2.IsWhole)
    (a3 : Memref sig .tc .vmem S1x128x512 .f32) (h3 : a3.IsWhole) (a4 : Memref sig .tc .vmem S8x128 .f32) (h4 : a4.IsWhole)
    (a5 : Memref sig .tc .vmem S8x128 .f32) (h5 : a5.IsWhole) (hc : ¬cond0_0 i)
    (x0 : Vec F S16x1x128x512 .f32) (x1 : Vec F S1x128x512 .f32) (xo2 xo3 : Vec F S8x128 .f32) :
    out0_B_3 c i a2 h2 a3 h3 a4 h4 a5 h5 hc x0 x1 xo2 xo3 = stepSq x0 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz2]
  simp only [View.readAt_eq_ld, h2.read_unread, h3.read_unread, h5.read_unread,
    View.ld_unit_zero (S := S8x128) hz2, View.ld_unit_zero (S := S1x128x512) hz3, View.ld_unit_zero (S := S16x1x128x512) hz4]

/-- At the first grid point the body first stores the zero block, reads it back, and adds the tile's contribution. -/
theorem out_A_2 (c : Dev nD) (i : grid0.Coords) (a2 : Memref sig .tc .vmem S16x1x128x512 .f32) (h2 : a2.IsWhole)
    (a3 : Memref sig .tc .vmem S1x128x512 .f32) (h3 : a3.IsWhole) (a4 : Memref sig .tc .vmem S8x128 .f32) (h4 : a4.IsWhole)
    (a5 : Memref sig .tc .vmem S8x128 .f32) (h5 : a5.IsWhole) (hc : cond0_0 i)
    (x0 : Vec F S16x1x128x512 .f32) (x1 : Vec F S1x128x512 .f32) :
    out0_A_2 c i a2 h2 a3 h3 a4 h4 a5 h5 hc x0 x1 = stepDev x0 x1 (zeroBlock (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S8x128) hz2, View.readCov_unit_zero (S := S8x128) _ hz2]
  simp only [View.readAt_eq_ld, h2.read_unread, h3.read_unread,
    View.ld_unit_zero (S := S1x128x512) hz3, View.ld_unit_zero (S := S16x1x128x512) hz4]
  rfl

/-- Likewise the second total at the first grid point. -/
theorem out_A_3 (c : Dev nD) (i : grid0.Coords) (a2 : Memref sig .tc .vmem S16x1x128x512 .f32) (h2 : a2.IsWhole)
    (a3 : Memref sig .tc .vmem S1x128x512 .f32) (h3 : a3.IsWhole) (a4 : Memref sig .tc .vmem S8x128 .f32) (h4 : a4.IsWhole)
    (a5 : Memref sig .tc .vmem S8x128 .f32) (h5 : a5.IsWhole) (hc : cond0_0 i)
    (x0 : Vec F S16x1x128x512 .f32) (x1 : Vec F S1x128x512 .f32) :
    out0_A_3 c i a2 h2 a3 h3 a4 h4 a5 h5 hc x0 x1 = stepSq x0 (zeroBlock (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S16x1x128x512) hz4]
  rfl

end Cert.KernelIdeal.Pieces

end
-- ==== Proof.TileValue.lean ====
/-
  The two numbers the kernel's body adds to its running totals, read entry by entry over the extended reals.

  From a tile x0[m, 0, r, w] of the predictions (16 members, 128 rows, 512 columns) and the matching tile
  x1[0, r, w] of the targets the body forms
    sum over m of ( sum over r of ( sum over w of |x0 - x1| ) )            and
    sum over r of ( sum over w of ( (sum over m of |x0|) * (1/16 word) )^2 ),
  each through one-axis sums interleaved with changes of shape that move no entry, spreads each over an [8, 128]
  block and adds it to the block it read.  Over the extended reals a one-axis sum is a finite sum and the changes of
  shape are re-indexings, so each new block is the old one plus a plain triple sum.
-/
import proofs.«149358_j14645838479695_2_alg».proof.Proof.Pieces
import proofs.«149358_j14645838479695_2_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem

namespace Cert.KernelIdeal.TileValue

open Cert.KernelIdeal Cert.KernelIdeal.Gen Cert.KernelIdeal.Pieces Idealize.ShloMosaic.ValueIdx

variable {α : Type}

/-! ## The body's re-shapings, read at an index -/

/-- A vector of 16 viewed as a 16 x 1 column keeps its entries. -/
theorem col16_apply (v : S16.Idx → α) (k : Fin 16) :
    shapeCast S16x1 v shapeCasts_S16_S16x1 (ix2 k (0 : Fin 1)) = v (ix1 k) :=
  shapeCast_apply v _ _ _ (by
    rw [Shape.rowMajor_val_one, Shape.rowMajor_val_two]
    show k.val = k.val * 1 + 0
    omega)

/-- A vector of 128 viewed as a 128 x 1 column keeps its entries. -/
theorem col128_apply (v : S128.Idx → α) (r : Fin 128) :
    shapeCast S128x1 v shapeCasts_S128_S128x1 (ix2 r (0 : Fin 1)) = v (ix1 r) :=
  shapeCast_apply v _ _ _ (by
    rw [Shape.rowMajor_val_one, Shape.rowMajor_val_two]
    show r.val = r.val * 1 + 0
    omega)

/-- A one-entry vector viewed as a 1 x 1 matrix keeps its entry. -/
theorem one_apply (v : S1.Idx → α) :
    shapeCast S1x1 v shapeCasts_S1_S1x1 (ix2 (0 : Fin 1) (0 : Fin 1)) = v (ix1 (0 : Fin 1)) :=
  shapeCast_apply v _ _ _ (by
    rw [Shape.rowMajor_val_one, Shape.rowMajor_val_two]
    show (0 : Nat) = 0 * 1 + 0
    omega)

/-- The prediction tile [16, 1, 128, 512] viewed as [16, 128, 512]: entry (m, r, w) is entry (m, 0, r, w). -/
theorem tile_apply (x0 : S16x1x128x512.Idx → α) (m : Fin 16) (r : Fin 128) (w : Fin 512) :
    shapeCast S16x128x512 x0 shapeCasts_S16x1x128x512_S16x128x512 (ix3 m r w) = x0 (ix4 m (0 : Fin 1) r w) :=
  shapeCast_apply x0 _ _ _ (by
    rw [Shape.rowMajor_val_three, Shape.rowMajor_val_four]
    show ((m.val * 1 + 0) * 128 + r.val) * 512 + w.val = (m.val * 128 + r.val) * 512 + w.val
    omega)

/-- The target tile [1, 128, 512] repeated over the 16 members: entry (m, r, w) is the tile's entry (0, r, w). -/
theorem rep_apply (v : S1x128x512.Idx → α) (m : Fin 16) (r : Fin 128) (w : Fin 512) :
    broadcastTo S16x128x512 v broadcasts_S1x128x512_S16x128x512 (ix3 m r w) = v (ix3 (0 : Fin 1) r w) :=
  broadcastTo_apply v _ _ _ (fun a => by
    match a with
    | ⟨0, _⟩ => show (0 : Nat) = if (1 : Nat) = 1 then 0 else _; rw [if_pos rfl]
    | ⟨1, _⟩ => show r.val = if (128 : Nat) = 1 then 0 else r.val; rw [if_neg (by decide)]
    | ⟨2, _⟩ => show w.val = if (512 : Nat) = 1 then 0 else w.val; rw [if_neg (by decide)])

/-- A 1 x 1 matrix spread over the 8 x 128 block: every entry is the one entry. -/
theorem spread_apply (v : S1x1.Idx → α) (p : Fin 8) (q : Fin 128) :
    broadcastTo S8x128 v broadcasts_S1x1_S8x128 (ix2 p q) = v (ix2 (0 : Fin 1) (0 : Fin 1)) :=
  broadcastTo_apply v _ _ _ (fun a => by
    match a with
    | ⟨0, _⟩ => show (0 : Nat) = if (1 : Nat) = 1 then 0 else _; rw [if_pos rfl]
    | ⟨1, _⟩ => show (0 : Nat) = if (1 : Nat) = 1 then 0 else _; rw [if_pos rfl])

/-! ## The body's six one-axis sums, read at an index over the extended reals -/

theorem sumCols3 (v : FVec Ideal S16x128x512 .f32) (k : Fin 16) (r : Fin 128) :
    multiReduction .add [2] S16x128 v 0x00000000#32 reduces_S16x128x512_S16x128 (.inl rfl) rfl (ix2 k r)
      = ∑ w : Fin 512, v (ix3 k r w) := by
  refine (Ideal.multiReduction_add_single v _ reduces_S16x128x512_S16x128 (.inl rfl) rfl (ix2 k r)).trans ?_
  refine Finset.sum_congr rfl fun w _ => congrArg v ?_
  funext a; apply Fin.ext
  match a with | ⟨0, _⟩ => rfl | ⟨1, _⟩ => rfl | ⟨2, _⟩ => rfl

theorem sumRows2 (v : FVec Ideal S16x128 .f32) (k : Fin 16) :
    multiReduction .add [1] S16 v 0x00000000#32 reduces_S16x128_S16 (.inl rfl) rfl (ix1 k)
      = ∑ r : Fin 128, v (ix2 k r) := by
  refine (Ideal.multiReduction_add_single v _ reduces_S16x128_S16 (.inl rfl) rfl (ix1 k)).trans ?_
  refine Finset.sum_congr rfl fun r _ => congrArg v ?_
  funext a; apply Fin.ext
  match a with | ⟨0, _⟩ => rfl | ⟨1, _⟩ => rfl

theorem sumMembersCol (v : FVec Ideal S16x1 .f32) :
    multiReduction .add [0] S1 v 0x00000000#32 reduces_S16x1_S1 (.inl rfl) rfl (ix1 (0 : Fin 1))
      = ∑ k : Fin 16, v (ix2 k (0 : Fin 1)) := by
  refine (Ideal.multiReduction_add_single v _ reduces_S16x1_S1 (.inl rfl) rfl (ix1 (0 : Fin 1))).trans ?_
  refine Finset.sum_congr rfl fun k _ => congrArg v ?_
  funext a; apply Fin.ext
  match a with | ⟨0, _⟩ => rfl | ⟨1, _⟩ => rfl

theorem sumMembers3 (v : FVec Ideal S16x128x512 .f32) (r : Fin 128) (w : Fin 512) :
    multiReduction .add [0] S128x512 v 0x00000000#32 reduces_S16x128x512_S128x512 (.inl rfl) rfl (ix2 r w)
      = ∑ m : Fin 16, v (ix3 m r w) := by
  refine (Ideal.multiReduction_add_single v _ reduces_S16x128x512_S128x512 (.inl rfl) rfl (ix2 r w)).trans ?_
  refine Finset.sum_congr rfl fun m _ => congrArg v ?_
  funext a; apply Fin.ext
  match a with | ⟨0, _⟩ => rfl | ⟨1, _⟩ => rfl | ⟨2, _⟩ => rfl

theorem sumCols2 (v : FVec Ideal S128x512 .f32) (r : Fin 128) :
    multiReduction .add [1] S128 v 0x00000000#32 reduces_S128x512_S128 (.inl rfl) rfl (ix1 r)
      = ∑ w : Fin 512, v (ix2 r w) := by
  refine (Ideal.multiReduction_add_single v _ reduces_S128x512_S128 (.inl rfl) rfl (ix1 r)).trans ?_
  refine Finset.sum_congr rfl fun w _ => congrArg v ?_
  funext a; apply Fin.ext
  match a with | ⟨0, _⟩ => rfl | ⟨1, _⟩ => rfl

theorem sumRowsCol (v : FVec Ideal S128x1 .f32) :
    multiReduction .add [0] S1 v 0x00000000#32 reduces_S128x1_S1 (.inl rfl) rfl (ix1 (0 : Fin 1))
      = ∑ r : Fin 128, v (ix2 r (0 : Fin 1)) := by
  refine (Ideal.multiReduction_add_single v _ reduces_S128x1_S1 (.inl rfl) rfl (ix1 (0 : Fin 1))).trans ?_
  refine Finset.sum_congr rfl fun r _ => congrArg v ?_
  funext a; apply Fin.ext
  match a with | ⟨0, _⟩ => rfl | ⟨1, _⟩ => rfl

/-! ## What the body adds to each running total, entry by entry -/

open Cert.Crps in
/-- The new first total at any entry of the block: the old entry plus the tile's sum, over the members, the rows and
    the columns, of |prediction - target|. -/
theorem stepDev_apply (x0 : Vec Ideal S16x1x128x512 .f32) (x1 : Vec Ideal S1x128x512 .f32) (acc : Vec Ideal S8x128 .f32)
    (p : Fin 8) (q : Fin 128) :
    stepDev x0 x1 acc (ix2 p q)
      = acc (ix2 p q) + ∑ m : Fin 16, ∑ r : Fin 128, ∑ w : Fin 512,
          eabs (x0 (ix4 m (0 : Fin 1) r w) - x1 (ix3 (0 : Fin 1) r w)) := by
  unfold stepDev k0_pay6 k0_pay4
  show shapeCast S8x128 acc shapeCasts_S8x128_S8x128 (ix2 p q) + broadcastTo S8x128 _ broadcasts_S1x1_S8x128 (ix2 p q) = _
  rw [shapeCast_self]
  refine congrArg (acc (ix2 p q) + ·) ?_
  refine (spread_apply _ p q).trans ?_
  rw [shapeCast_self]
  refine (one_apply _).trans ?_
  refine (sumMembersCol _).trans ?_
  refine Finset.sum_congr rfl fun m _ => ?_
  refine (col16_apply _ m).trans ?_
  refine (sumRows2 _ m).trans ?_
  refine Finset.sum_congr rfl fun r _ => ?_
  refine (sumCols3 _ m r).trans ?_
  refine Finset.sum_congr rfl fun w _ => ?_
  show eabs (shapeCast S16x128x512 x0 shapeCasts_S16x1x128x512_S16x128x512 (ix3 m r w)
    - broadcastTo S16x128x512 (shapeCast S1x128x512 (shapeCast S128x512 x1 shapeCasts_S1x128x512_S128x512) shapeCasts_S128x512_S1x128x512)
        broadcasts_S1x128x512_S16x128x512 (ix3 m r w)) = _
  rw [tile_apply, shapeCast_shapeCast, rep_apply]

open Cert.Crps in
/-- The new second total at any entry of the block: the old entry plus the tile's sum, over the rows and the columns,
    of the square of the members' sum of |prediction| scaled by the word of 1/16. -/
theorem stepSq_apply (x0 : Vec Ideal S16x1x128x512 .f32) (acc : Vec Ideal S8x128 .f32) (p : Fin 8) (q : Fin 128) :
    stepSq x0 acc (ix2 p q)
      = acc (ix2 p q) + ∑ r : Fin 128, ∑ w : Fin 512,
          ((∑ m : Fin 16, eabs (x0 (ix4 m (0 : Fin 1) r w))) * Ideal.ofBits .f32 0x3D800000#32)
            * ((∑ m : Fin 16, eabs (x0 (ix4 m (0 : Fin 1) r w))) * Ideal.ofBits .f32 0x3D800000#32) := by
  unfold stepSq k0_pay1 k0_pay5 k0_pay4
  show shapeCast S8x128 acc shapeCasts_S8x128_S8x128 (ix2 p q) + broadcastTo S8x128 _ broadcasts_S1x1_S8x128 (ix2 p q) = _
  rw [shapeCast_self]
  refine congrArg (acc (ix2 p q) + ·) ?_
  refine (spread_apply _ p q).trans ?_
  rw [shapeCast_self]
  refine (one_apply _).trans ?_
  refine (sumRowsCol _).trans ?_
  refine Finset.sum_congr rfl fun r _ => ?_
  refine (col128_apply _ r).trans ?_
  refine (sumCols2 _ r).trans ?_
  refine Finset.sum_congr rfl fun w _ => ?_
  have e : multiReduction (F := Ideal) .add [0] S128x512 (absf (shapeCast S16x128x512 x0 shapeCasts_S16x1x128x512_S16x128x512))
      0x00000000#32 reduces_S16x128x512_S128x512 (.inl rfl) rfl (ix2 r w)
        = ∑ m : Fin 16, eabs (x0 (ix4 m (0 : Fin 1) r w)) := by
    refine (sumMembers3 _ r w).trans ?_
    refine Finset.sum_congr rfl fun m _ => ?_
    show eabs (shapeCast S16x128x512 x0 shapeCasts_S16x1x128x512_S16x128x512 (ix3 m r w)) = _
    rw [tile_apply]
  show (multiReduction (F := Ideal) .add [0] S128x512 (absf (shapeCast S16x128x512 x0 shapeCasts_S16x1x128x512_S16x128x512))
      0x00000000#32 reduces_S16x128x512_S128x512 (.inl rfl) rfl (ix2 r w) * Ideal.ofBits .f32 0x3D800000#32)
    * (multiReduction (F := Ideal) .add [0] S128x512 (absf (shapeCast S16x128x512 x0 shapeCasts_S16x1x128x512_S16x128x512))
      0x00000000#32 reduces_S16x128x512_S128x512 (.inl rfl) rfl (ix2 r w) * Ideal.ofBits .f32 0x3D800000#32) = _
  rw [e]

/-- Every entry of the zero block is the zero word's value. -/
theorem zeroBlock_apply (p : Fin 8) (q : Fin 128) :
    zeroBlock (F := Ideal) (ix2 p q) = Ideal.ofBits .f32 0x00000000#32 := rfl

end Cert.KernelIdeal.TileValue

end
-- ==== Proof.Totals.lean ====
/-
  The kernel's result as a function of its two argument arrays.

  The grid has 32 points: point t works on image t / 4 and on the band of 128 rows t % 4, reading the predictions'
  tile (all 16 members of that band) and the targets' tile.  Two [8, 128] blocks stay resident over the whole grid and
  are written back once, after the last point.  By induction on the point every entry of the first block is, after
  point n, the zero word plus the first partial sums of the tiles 0 … n, and every entry of the second block the zero
  word plus their second partial sums.  After point 31 these are the specification's two totals; the lines after
  the kernel read entry (0, 0) of each block, divide by 2^25, by 2^21 and by 512, and subtract.
-/
import proofs.«149358_j14645838479695_2_alg».proof.Proof.TileValue
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Totals

open Cert.KernelIdeal Cert.KernelIdeal.Gen Cert.KernelIdeal.Pieces Cert.KernelIdeal.TileValue
open Idealize.ShloMosaic.ValueIdx Cert.Crps

variable (m : (ℓ : Loc nD τ sig) → Buf (Elt Ideal) ℓ) (ρ : Dev nD → PrngReg)

/-- The two argument arrays on core c, as the program is launched. -/
abbrev argP (c : Dev nD) : SP.Idx → EReal := m ((c : Thread nD τ).loc main_arg0)
abbrev argY (c : Dev nD) : SY.Idx → EReal := m ((c : Thread nD τ).loc main_arg1)

/-! ## The tiles the grid walks -/

/-- Grid point t takes the predictions' block (0, t / 4, t % 4, 0) — decided over the 32 points. -/
theorem idxP : ∀ t : Fin cfg0.N, win0_0.index t (0 : Fin 4) = 0 ∧ win0_0.index t (1 : Fin 4) = t.val / 4
      ∧ win0_0.index t (2 : Fin 4) = t.val % 4 ∧ win0_0.index t (3 : Fin 4) = 0 :=
  (by decide +kernel : ∀ t : Fin grid0.N, win0_0.index t (0 : Fin 4) = 0 ∧ win0_0.index t (1 : Fin 4) = t.val / 4
      ∧ win0_0.index t (2 : Fin 4) = t.val % 4 ∧ win0_0.index t (3 : Fin 4) = 0)

/-- and the targets' block (t / 4, t % 4, 0). -/
theorem idxY : ∀ t : Fin cfg0.N, win0_1.index t (0 : Fin 3) = t.val / 4 ∧ win0_1.index t (1 : Fin 3) = t.val % 4
      ∧ win0_1.index t (2 : Fin 3) = 0 :=
  (by decide +kernel : ∀ t : Fin grid0.N, win0_1.index t (0 : Fin 3) = t.val / 4 ∧ win0_1.index t (1 : Fin 3) = t.val % 4
      ∧ win0_1.index t (2 : Fin 3) = 0)

/-- Entry (mm, 0, r, w) of the predictions' tile at grid point t is the array's entry at member mm, image t / 4,
    row 128 * (t % 4) + r, column w. -/
theorem tileP_apply (c : Dev nD) (t : Fin cfg0.N) (mm : Fin 16) (r : Fin 128) (w : Fin 512) :
    (iblk m c 0 t : Vec Ideal S16x1x128x512 .f32) (ix4 mm (0 : Fin 1) r w)
      = argP m c (ix4 mm (tileB t.val) (row (tileH t.val) r) w) := by
  obtain ⟨h0, h1, h2, h3⟩ := idxP t
  have hN : t.val < 32 := lt_of_lt_of_eq t.isLt (show cfg0.N = 32 from N_0)
  unfold iblk
  rw [View.read_apply]
  show V m c main_arg0 _ = m ((c : Thread nD τ).loc main_arg0) _
  unfold V
  refine congrArg (m ((c : Thread nD τ).loc main_arg0)) ?_
  funext a
  apply Fin.ext
  match a with
  | ⟨0, _⟩ => show win0_0.index t 0 * 16 + 1 * mm.val = mm.val; rw [h0]; omega
  | ⟨1, _⟩ => show win0_0.index t 1 * 1 + 1 * 0 = (t.val / 4) % 8; rw [h1]; omega
  | ⟨2, _⟩ => show win0_0.index t 2 * 128 + 1 * r.val = 128 * (t.val % 4) + r.val; rw [h2]; omega
  | ⟨3, _⟩ => show win0_0.index t 3 * 512 + 1 * w.val = w.val; rw [h3]; omega

/-- Entry (0, r, w) of the targets' tile at grid point t is the array's entry at image t / 4, row 128 * (t % 4) + r,
    column w. -/
theorem tileY_apply (c : Dev nD) (t : Fin cfg0.N) (r : Fin 128) (w : Fin 512) :
    (iblk m c 1 t : Vec Ideal S1x128x512 .f32) (ix3 (0 : Fin 1) r w)
      = argY m c (ix3 (tileB t.val) (row (tileH t.val) r) w) := by
  obtain ⟨h0, h1, h2⟩ := idxY t
  have hN : t.val < 32 := lt_of_lt_of_eq t.isLt (show cfg0.N = 32 from N_0)
  unfold iblk
  rw [View.read_apply]
  show V m c main_arg1 _ = m ((c : Thread nD τ).loc main_arg1) _
  unfold V
  refine congrArg (m ((c : Thread nD τ).loc main_arg1)) ?_
  funext a
  apply Fin.ext
  match a with
  | ⟨0, _⟩ => show win0_1.index t 0 * 1 + 1 * 0 = (t.val / 4) % 8; rw [h0]; omega
  | ⟨1, _⟩ => show win0_1.index t 1 * 128 + 1 * r.val = 128 * (t.val % 4) + r.val; rw [h1]; omega
  | ⟨2, _⟩ => show win0_1.index t 2 * 512 + 1 * w.val = w.val; rw [h2]; omega

/-! ## The running totals, point by point -/

/-- If a prediction tile and a target tile hold the arrays' entries of image b, band hb, the tile's first partial sum
    is the specification's. -/
theorem tileDev_of (P : SP.Idx → EReal) (Y : SY.Idx → EReal) (b : Fin 8) (hb : Fin 4)
    (x0 : Vec Ideal S16x1x128x512 .f32) (x1 : Vec Ideal S1x128x512 .f32)
    (h0 : ∀ (mm : Fin 16) (r : Fin 128) (w : Fin 512), x0 (ix4 mm (0 : Fin 1) r w) = P (ix4 mm b (row hb r) w))
    (h1 : ∀ (r : Fin 128) (w : Fin 512), x1 (ix3 (0 : Fin 1) r w) = Y (ix3 b (row hb r) w)) :
    (∑ mm : Fin 16, ∑ r : Fin 128, ∑ w : Fin 512, eabs (x0 (ix4 mm (0 : Fin 1) r w) - x1 (ix3 (0 : Fin 1) r w)))
      = tileDev P Y b hb := by
  unfold tileDev dev
  refine Finset.sum_congr rfl fun mm _ => Finset.sum_congr rfl fun r _ => Finset.sum_congr rfl fun w _ => ?_
  rw [h0 mm r w, h1 r w]

/-- Likewise the tile's second partial sum, for any scale c. -/
theorem tileSq_of (c : EReal) (P : SP.Idx → EReal) (b : Fin 8) (hb : Fin 4) (x0 : Vec Ideal S16x1x128x512 .f32)
    (h0 : ∀ (mm : Fin 16) (r : Fin 128) (w : Fin 512), x0 (ix4 mm (0 : Fin 1) r w) = P (ix4 mm b (row hb r) w)) :
    (∑ r : Fin 128, ∑ w : Fin 512,
        ((∑ mm : Fin 16, eabs (x0 (ix4 mm (0 : Fin 1) r w))) * c) * ((∑ mm : Fin 16, eabs (x0 (ix4 mm (0 : Fin 1) r w))) * c))
      = tileSq c P b hb := by
  unfold tileSq colAbs
  refine Finset.sum_congr rfl fun r _ => Finset.sum_congr rfl fun w _ => ?_
  have e : (∑ mm : Fin 16, eabs (x0 (ix4 mm (0 : Fin 1) r w))) = ∑ mm : Fin 16, eabs (P (ix4 mm b (row hb r) w)) :=
    Finset.sum_congr rfl fun mm _ => by rw [h0 mm r w]
  rw [e]

/-- After grid point n each entry of the first block is the zero word plus the first partial sums of points 0 … n,
    and each entry of the second block the zero word plus their second partial sums: by induction on the point, the
    first point storing zero before it adds, every later one adding to what the point before left. -/
theorem totals_at (c : Dev nD) : ∀ (n : ℕ) (hn : n < cfg0.N),
    (∀ (p : Fin 8) (q : Fin 128), (outsAt0 m c n hn).1 (ix2 p q)
        = Ideal.ofBits .f32 0x00000000#32
          + ∑ s ∈ Finset.range (n + 1), tileDev (argP m c) (argY m c) (tileB s) (tileH s))
    ∧ (∀ (p : Fin 8) (q : Fin 128), (outsAt0 m c n hn).2 (ix2 p q)
        = Ideal.ofBits .f32 0x00000000#32
          + ∑ s ∈ Finset.range (n + 1), tileSq (Ideal.ofBits .f32 0x3D800000#32) (argP m c) (tileB s) (tileH s))
  | 0, hn => by
    rw [outsAt0_A m c ⟨0, hn⟩ rfl]
    dsimp only
    rw [out_A_2, out_A_3]
    refine ⟨fun p q => ?_, fun p q => ?_⟩
    · refine (stepDev_apply (iblk m c 0 ⟨0, hn⟩) (iblk m c 1 ⟨0, hn⟩) (zeroBlock (F := Ideal)) p q).trans ?_
      rw [tileDev_of (argP m c) (argY m c) (tileB 0) (tileH 0) (iblk m c 0 ⟨0, hn⟩) (iblk m c 1 ⟨0, hn⟩)
        (tileP_apply m c ⟨0, hn⟩) (tileY_apply m c ⟨0, hn⟩), Finset.sum_range_one]
      rfl
    · refine (stepSq_apply (iblk m c 0 ⟨0, hn⟩) (zeroBlock (F := Ideal)) p q).trans ?_
      rw [tileSq_of _ (argP m c) (tileB 0) (tileH 0) (iblk m c 0 ⟨0, hn⟩) (tileP_apply m c ⟨0, hn⟩),
        Finset.sum_range_one]
      rfl
  | n + 1, hn => by
    have hN : cfg0.N = 32 := N_0
    have hB : ¬(⟨n + 1, hn⟩ : Fin cfg0.N).val % 32 = 0 := by dsimp only; omega
    obtain ⟨ih1, ih2⟩ := totals_at c n (Nat.lt_of_succ_lt hn)
    rw [outsAt0_B m c ⟨n + 1, hn⟩ hB]
    dsimp only
    rw [out_B_2, out_B_3]
    refine ⟨fun p q => ?_, fun p q => ?_⟩
    · refine (stepDev_apply (iblk m c 0 ⟨n + 1, hn⟩) (iblk m c 1 ⟨n + 1, hn⟩) _ p q).trans ?_
      rw [tileDev_of (argP m c) (argY m c) (tileB (n + 1)) (tileH (n + 1)) (iblk m c 0 ⟨n + 1, hn⟩) (iblk m c 1 ⟨n + 1, hn⟩)
        (tileP_apply m c ⟨n + 1, hn⟩) (tileY_apply m c ⟨n + 1, hn⟩), Finset.sum_range_succ _ (n + 1), ← add_assoc]
      exact congrArg (· + _) (ih1 p q)
    · refine (stepSq_apply (iblk m c 0 ⟨n + 1, hn⟩) _ p q).trans ?_
      rw [tileSq_of _ (argP m c) (tileB (n + 1)) (tileH (n + 1)) (iblk m c 0 ⟨n + 1, hn⟩) (tileP_apply m c ⟨n + 1, hn⟩),
        Finset.sum_range_succ _ (n + 1), ← add_assoc]
      exact congrArg (· + _) (ih2 p q)

/-! ## The two result blocks after the last grid point, and the arithmetic after the kernel -/

/-- The first total: the zero word plus all 32 tiles' first partial sums, in every entry of the block. -/
abbrev total1 (c : Dev nD) : Buf (Elt Ideal) ((c : Thread nD τ).loc main_v0_0) :=
  fun _ => Ideal.ofBits .f32 0x00000000#32 + kerDev (argP m c) (argY m c)

/-- The second total: the zero word plus all 32 tiles' second partial sums. -/
abbrev total2 (c : Dev nD) : Buf (Elt Ideal) ((c : Thread nD τ).loc main_v0_1) :=
  fun _ => Ideal.ofBits .f32 0x00000000#32 + kerSq (Ideal.ofBits .f32 0x3D800000#32) (argP m c)

/-- The last grid point. -/
abbrev tLast : Fin cfg0.N := ⟨31, by rw [show cfg0.N = 32 from N_0]; decide⟩

theorem outs_last1 (c : Dev nD) : (outsAt0 m c (tLast).val (tLast).isLt).1 = total1 m c := by
  funext j
  rw [eq_ix2 j]
  exact ((totals_at m c 31 (tLast).isLt).1 (j 0) (j 1))

theorem outs_last2 (c : Dev nD) : (outsAt0 m c (tLast).val (tLast).isLt).2 = total2 m c := by
  funext j
  rw [eq_ix2 j]
  exact ((totals_at m c 31 (tLast).isLt).2 (j 0) (j 1))

/-- The one write-back of the first block, after the last point, writes the first total: the block is the whole
    [8, 128] array read through zero offsets. -/
theorem flushed1_eq (c : Dev nD) (t : Fin cfg0.N) (hf : (cfg0.win 2).flush t = true) :
    (dats m 0 c).flushed 2 t = ((cfg0.win 2).blk t).view.read (Elt Ideal) (total1 m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, outs_last1]
  have hz' : (fun a => win0_2.index tLast a * main_v0_0.ty.shape.size a) = fun _ => 0 := funext fun a => by fin_cases a <;> decide
  exact (Memref.read_access_unit_zero (Elt Ideal) main_v0_0 hz' (fun a => by rw [congrFun hz' a]; simp) (total1 m c)).symm

theorem flushed2_eq (c : Dev nD) (t : Fin cfg0.N) (hf : (cfg0.win 3).flush t = true) :
    (dats m 0 c).flushed 3 t = ((cfg0.win 3).blk t).view.read (Elt Ideal) (total2 m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3, outs_last2]
  have hz' : (fun a => win0_3.index tLast a * main_v0_1.ty.shape.size a) = fun _ => 0 := funext fun a => by fin_cases a <;> decide
  exact (Memref.read_access_unit_zero (Elt Ideal) main_v0_1 hz' (fun a => by rw [congrFun hz' a]; simp) (total2 m c)).symm

/-- So the first result array ends holding the first total: the last point's block covers it. -/
theorem final1 (c : Dev nD) : (dats m 0 c).arrAt 2 cfg0.N = total1 m c :=
  (dats m 0 c).arrAt_eq_of_cover 2 (total1 m c) (flushed1_eq m c) fun i =>
    ⟨tLast, (flush0_2 tLast).mpr rfl, by
      show i ∈ ((View.whole main_v0_0).slice (win0_2.rect tLast)).set
      rw [View.set_slice_whole, Rect.mem_set_unit]
      intro a
      have h0 : (i 0 : Nat) < 8 := (i 0).isLt
      have h1 : (i 1 : Nat) < 128 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 8 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 128 from by decide +kernel]; omega⟩

theorem final2 (c : Dev nD) : (dats m 0 c).arrAt 3 cfg0.N = total2 m c :=
  (dats m 0 c).arrAt_eq_of_cover 3 (total2 m c) (flushed2_eq m c) fun i =>
    ⟨tLast, (flush0_3 tLast).mpr rfl, by
      show i ∈ ((View.whole main_v0_1).slice (win0_3.rect tLast)).set
      rw [View.set_slice_whole, Rect.mem_set_unit]
      intro a
      have h0 : (i 0 : Nat) < 8 := (i 0).isLt
      have h1 : (i 1 : Nat) < 128 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 8 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 128 from by decide +kernel]; omega⟩

/-- The lines after the kernel take entry (0, 0) of each result block, divide and subtract: with the blocks at the two
    totals, the program's result is the specification's. -/
theorem tail_eq (c : Dev nD) :
    Pipeline.afterTail₀ cfgs (dats m) 0 (V0 m) [hostOps1] c main_v8 = fun _ => result (argP m c) (argY m c) := by
  have e1 : Pipeline.withArrays (cfgs 0).spec c (V0 m c) (fun w => (dats m 0 c).arrAt w (cfgs 0).N)
      (Proc.devRef .tc main_v0_0) = total1 m c :=
    (Pipeline.withArrays_arr spec0 launch0.win.arr_inj c _ _ 2).trans (final1 m c)
  have e2 : Pipeline.withArrays (cfgs 0).spec c (V0 m c) (fun w => (dats m 0 c).arrAt w (cfgs 0).N)
      (Proc.devRef .tc main_v0_1) = total2 m c :=
    (Pipeline.withArrays_arr spec0 launch0.win.arr_inj c _ _ 3).trans (final2 m c)
  unfold Pipeline.afterTail₀
  show StableHlo.after hostOps1 _ (Proc.devRef .tc main_v8) = _
  after_results
  rw [e1, e2]
  funext i
  rfl

/-- The kernel's run, read: the result at the specification's value of the argument arrays, the arguments unchanged. -/
theorem run : θ_run defs (onTc (τ := τ) (main (F := Ideal))) ⟨m, fun _ => 0, ρ⟩ fun r => ∀ c : Dev nD,
      r.2.mem ((c.tc : Thread nD τ).loc main_v8) = (fun _ => result (argP m c) (argY m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v8 (Pipeline.mem_restRefs_of main_v8 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Totals

end
-- ==== Proof.lean ====
/-
  The kernel and its reference compute the same extended real.

  Both programs compute, from predictions P[m, b, h, w] and targets Y[b, h, w],
      ( sum of |P - Y| ) / 2^25  -  ( sum over b, h, w of (mean over m of |P|)^2 ) / 2^21 / 512.
  The kernel adds the two sums tile by tile over a grid of 8 images by 4 bands of rows and takes the member mean by
  multiplying with the word of 1/16; the reference sums over the whole arrays and divides by 16.  Over the extended
  reals addition is commutative and associative everywhere, so the tile-by-tile sums are the whole-array sums, and
  dividing by 16 is multiplying by 1/16 for every extended real; no finiteness of the inputs is used.
  The three programs' runs terminate with their arguments unchanged; the idealized kernel is the kernel's own text
  (nothing was rewritten), so that claim is trivial.
-/
import proofs.«149358_j14645838479695_2_alg».proof.Defs
import proofs.«149358_j14645838479695_2_alg».proof.Proof.Gen.Kernel
import proofs.«149358_j14645838479695_2_alg».proof.Proof.Gen.Kernel.Skeleton
import proofs.«149358_j14645838479695_2_alg».proof.Proof.Gen.Kernel.Launch
import proofs.«149358_j14645838479695_2_alg».proof.Proof.Gen.Kernel.Points
import proofs.«149358_j14645838479695_2_alg».proof.Proof.Gen.Kernel.Frame
import proofs.«149358_j14645838479695_2_alg».proof.Proof.Gen.KernelIdeal
import proofs.«149358_j14645838479695_2_alg».proof.Proof.Gen.KernelIdeal.Skeleton
import proofs.«149358_j14645838479695_2_alg».proof.Proof.Gen.KernelIdeal.Launch
import proofs.«149358_j14645838479695_2_alg».proof.Proof.Gen.KernelIdeal.Points
import proofs.«149358_j14645838479695_2_alg».proof.Proof.Gen.KernelIdeal.Frame
import proofs.«149358_j14645838479695_2_alg».proof.Proof.Gen.ReferenceIdeal
import proofs.«149358_j14645838479695_2_alg».proof.Proof.Gen.ReferenceIdeal.Run
import proofs.«149358_j14645838479695_2_alg».proof.Proof.Gen.ReferenceIdeal.Read
import proofs.«149358_j14645838479695_2_alg».proof.Proof.Gen.Pre_finite_inputs
import Idealize.ShloMosaic.Adequacy
import Idealize.ShloMosaic.Init
import proofs.«149358_j14645838479695_2_alg».proof.Proof.Law
import proofs.«149358_j14645838479695_2_alg».proof.Proof.RefValue
import proofs.«149358_j14645838479695_2_alg».proof.Proof.Totals

noncomputable section

namespace Cert.Proof

open Idealize.ShloMosaic Idealize.SL.Sem

/-- The kernel as printed runs, its arguments unchanged. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference runs, its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- Over the extended reals the kernel's result is the specification's value of its arguments, and so is the
    reference's of arguments that agree: the whole-array sums are the tile-by-tile sums, and the division by 16 is the
    product with 1/16. -/
theorem algebraic : Cert.algebraic_KernelIdeal_ReferenceIdeal := by
  intro m ρ m' ρ' _ hagree
  refine ⟨fun c => fun _ => Cert.Crps.result (Cert.KernelIdeal.Totals.argP m c) (Cert.KernelIdeal.Totals.argY m c),
    Cert.KernelIdeal.Totals.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _).trans ?_
  rw [Cert.ReferenceIdeal.RefValue.val_eq, (hagree c).1, (hagree c).2, Cert.Crps.refDev_eq_kerDev,
    Cert.Crps.refSq_eq_kerSq]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
